-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S16384 : Shape := ⟨1, ![16384]⟩
abbrev S8192 : Shape := ⟨1, ![8192]⟩
abbrev S1024 : Shape := ⟨1, ![1024]⟩
abbrev S8192x16384 : Shape := ⟨2, ![8192, 16384]⟩
abbrev S1024x8192 : Shape := ⟨2, ![1024, 8192]⟩
abbrev S256x256 : Shape := ⟨2, ![256, 256]⟩
abbrev S512x256 : Shape := ⟨2, ![512, 256]⟩
abbrev S256x64 : Shape := ⟨2, ![256, 64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S8192x16384 : S_.BroadcastsInDim S8192x16384 (![] : Fin 0 → Fin S8192x16384.rank)
  reducesTo_S8192x16384_S_d0_1 : S8192x16384.ReducesTo [0, 1] S_
  bcast_S_S1024x8192 : S_.BroadcastsInDim S1024x8192 (![] : Fin 0 → Fin S1024x8192.rank)
  reducesTo_S1024x8192_S_d0_1 : S1024x8192.ReducesTo [0, 1] S_
  bcast_S_S256x256 : S_.BroadcastsInDim S256x256 (![] : Fin 0 → Fin S256x256.rank)
  reducesTo_S256x256_S_d0_1 : S256x256.ReducesTo [0, 1] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_

variable [Facts]

def fn_part1 {F : FTy → Type} [FloatOps F] (main_arg7 : FVec F S512x256 .f32) (main_arg8 : FVec F S256x64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S512x256 .f32 := Host.absf main_arg7
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x64 .f32 := Host.absf main_arg8
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  main_v28

def fn {F : FTy → Type} [FloatOps F] (main_arg0 : FVec F S200000x128 .f32) (main_arg1 : IVec S16384 32) (main_arg2 : IVec S8192 32) (main_arg3 : IVec S1024 32) (main_arg4 : FVec F S8192x16384 .f32) (main_arg5 : FVec F S1024x8192 .f32) (main_arg6 : FVec F S256x256 .f32) (main_arg7 : FVec F S512x256 .f32) (main_arg8 : FVec F S256x64 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S8192x16384 .f32 := Host.absf main_arg4
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S1024x8192 .f32 := Host.absf main_arg5
  let main_cst_2 : FVec F S_ .f32 := constant S_ .f32 0x7F800000#32
  let main_v10 : FVec F S1024x8192 .f32 := broadcastInDim S1024x8192 ![] bcast_S_S1024x8192 main_cst_2
  let main_v11 : IVec S1024x8192 1 := cmpf .olt main_v9 main_v10
  let main_c_3 : IVec S_ 1 := constantI S_ 1 1#1
  let main_v12 : IVec S_ 1 := (fun x v => Host.reduce IntOp.andi x v reducesTo_S1024x8192_S_d0_1 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg7 main_arg8 main_v13 main_v16
-- ==== Kernel.lean ====
abbrev S200000x128 : Shape := ⟨2, ![200000, 128]⟩
abbrev S16384 : Shape := ⟨1, ![16384]⟩
abbrev S8192 : Shape := ⟨1, ![8192]⟩
abbrev S1024 : Shape := ⟨1, ![1024]⟩
abbrev S8192x16384 : Shape := ⟨2, ![8192, 16384]⟩
abbrev S1024x8192 : Shape := ⟨2, ![1024, 8192]⟩
abbrev S256x256 : Shape := ⟨2, ![256, 256]⟩
abbrev S512x256 : Shape := ⟨2, ![512, 256]⟩
abbrev S256x64 : Shape := ⟨2, ![256, 64]⟩
abbrev S_ : Shape := ⟨0, ![]⟩
abbrev S16384x1 : Shape := ⟨2, ![16384, 1]⟩
abbrev S16384x128 : Shape := ⟨2, ![16384, 128]⟩
abbrev S8192x1 : Shape := ⟨2, ![8192, 1]⟩
abbrev S8192x128 : Shape := ⟨2, ![8192, 128]⟩
abbrev S8192x256 : Shape := ⟨2, ![8192, 256]⟩
abbrev S128x16384 : Shape := ⟨2, ![128, 16384]⟩
abbrev S128x128 : Shape := ⟨2, ![128, 128]⟩
abbrev S128x256 : Shape := ⟨2, ![128, 256]⟩
abbrev S1024x1 : Shape := ⟨2, ![1024, 1]⟩
abbrev S1024x256 : Shape := ⟨2, ![1024, 256]⟩
abbrev S1024x64 : Shape := ⟨2, ![1024, 64]⟩
abbrev S128x8192 : Shape := ⟨2, ![128, 8192]⟩
abbrev S128x64 : Shape := ⟨2, ![128, 64]⟩
abbrev S128x512 : Shape := ⟨2, ![128, 512]⟩

abbrev nBuf : Space → Nat
  | .hbm => 49
  | .vmem => 17
  | .smem => 0
  | _ => 0

abbrev bufTy : (tb : Table) → Fin (tcTables nBuf tb) → BufTy
  | .hbm, ⟨0, _⟩ => ⟨S200000x128, .f32⟩
  | .hbm, ⟨1, _⟩ => ⟨S16384, .i32⟩
  | .hbm, ⟨2, _⟩ => ⟨S8192, .i32⟩
  | .hbm, ⟨3, _⟩ => ⟨S1024, .i32⟩
  | .hbm, ⟨4, _⟩ => ⟨S8192x16384, .f32⟩
  | .hbm, ⟨5, _⟩ => ⟨S1024x8192, .f32⟩
  | .hbm, ⟨6, _⟩ => ⟨S256x256, .f32⟩
  | .hbm, ⟨7, _⟩ => ⟨S512x256, .f32⟩
  | .hbm, ⟨8, _⟩ => ⟨S256x64, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S16384x128, .bf16⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192, .i32⟩
  | .hbm, ⟨28, _⟩ => ⟨S_, .i32⟩
  | .hbm, ⟨29, _⟩ => ⟨S8192, .i32⟩
  | .hbm, ⟨30, _⟩ => ⟨S8192, .i1⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S8192x1, .i32⟩
  | .hbm, ⟨36, _⟩ => ⟨S8192x128, .f32⟩
  | .hbm, ⟨37, _⟩ => ⟨S8192x256, .f32⟩
  | .hbm, ⟨38, _⟩ => ⟨S8192x256, .bf16⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1024x256, .f32⟩
  | .hbm, ⟨48, _⟩ => ⟨S1024x64, .f32⟩
  | .local _ .vmem, ⟨0, _⟩ => ⟨S128x16384, .f32⟩
  | .local _ .vmem, ⟨1, _⟩ => ⟨S128x16384, .f32⟩
  | .local _ .vmem, ⟨2, _⟩ => ⟨S16384x128, .bf16⟩
  | .local _ .vmem, ⟨3, _⟩ => ⟨S128x128, .f32⟩
  | .local _ .vmem, ⟨4, _⟩ => ⟨S128x128, .f32⟩
  | .local _ .vmem, ⟨5, _⟩ => ⟨S256x256, .f32⟩
  | .local _ .vmem, ⟨6, _⟩ => ⟨S128x256, .f32⟩
  | .local _ .vmem, ⟨7, _⟩ => ⟨S128x256, .f32⟩
  | .local _ .vmem, ⟨8, _⟩ => ⟨S128x8192, .f32⟩
  | .local _ .vmem, ⟨9, _⟩ => ⟨S128x8192, .f32⟩
  | .local _ .vmem, ⟨10, _⟩ => ⟨S8192x256, .bf16⟩
  | .local _ .vmem, ⟨11, _⟩ => ⟨S128x256, .f32⟩
  | .local _ .vmem, ⟨12, _⟩ => ⟨S128x256, .f32⟩
  | .local _ .vmem, ⟨13, _⟩ => ⟨S512x256, .f32⟩
  | .local _ .vmem, ⟨14, _⟩ => ⟨S256x64, .f32⟩
  | .local _ .vmem, ⟨15, _⟩ => ⟨S128x64, .f32⟩
  | .local _ .vmem, ⟨16, _⟩ => ⟨S128x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_c_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bitsLt_bf16_f32 : FTy.bits .bf16 < FTy.bits .f32
  bcast_S_S8192 : S_.BroadcastsInDim S8192 (![] : Fin 0 → Fin S8192.rank)
  bcast_S8192_S8192x1_0 : S8192.BroadcastsInDim S8192x1 (![0] : Fin 1 → Fin S8192x1.rank)
  inb_S128x16384_S128x16384_0_0 : ∀ a, (![0, 0] : Fin 2 → Nat) a + S128x16384.size a ≤ S128x16384.size a
  h_S128x16384 : 0 < S128x16384.numel
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S128x128_S128x128_S128x256_d1 : Shape.Concatenates [S128x128, S128x128] S128x256 1
  inb_S256x256_S256x256_0_0 : ∀ a, (![0, 0] : Fin 2 → Nat) a + S256x256.size a ≤ S256x256.size a
  h_S256x256 : 0 < S256x256.numel
  inb_S128x256_S128x256_0_0 : ∀ a, (![0, 0] : Fin 2 → Nat) a + S128x256.size a ≤ S128x256.size a
  h_S128x256 : 0 < S128x256.numel
  bcast_S_S1024 : S_.BroadcastsInDim S1024 (![] : Fin 0 → Fin S1024.rank)
  bcast_S1024_S1024x1_0 : S1024.BroadcastsInDim S1024x1 (![0] : Fin 1 → Fin S1024x1.rank)
  inb_S128x8192_S128x8192_0_0 : ∀ a, (![0, 0] : Fin 2 → Nat) a + S128x8192.size a ≤ S128x8192.size a
  h_S128x8192 : 0 < S128x8192.numel
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  shapeCasts_S128x256_S128x256 : S128x256.ShapeCasts S128x256
  concatenates_S128x256_S128x256_S128x512_d1 : Shape.Concatenates [S128x256, S128x256] S128x512 1
  inb_S512x256_S512x256_0_0 : ∀ a, (![0, 0] : Fin 2 → Nat) a + S512x256.size a ≤ S512x256.size a
  h_S512x256 : 0 < S512x256.numel
  inb_S256x64_S256x64_0_0 : ∀ a, (![0, 0] : Fin 2 → Nat) a + S256x64.size a ≤ S256x64.size a
  h_S256x64 : 0 < S256x64.numel
  inb_S128x64_S128x64_0_0 : ∀ a, (![0, 0] : Fin 2 → Nat) a + S128x64.size a ≤ S128x64.size a
  h_S128x64 : 0 < S128x64.numel
  gather_S200000x128_S16384x1_S16384x128_1_0_n_n_0_1_1128_wf : GatherDims.WF S200000x128 S16384x1 S16384x128 [1] [0] [] [0] [] 1 ![1, 128]
  gather_S16384_S8192x1_S8192_n_0_n_n_0_1_1_wf : GatherDims.WF S16384 S8192x1 S8192 [] [0] [] [0] [] 1 ![1]
  gather_S200000x128_S8192x1_S8192x128_1_0_n_n_0_1_1128_wf : GatherDims.WF S200000x128 S8192x1 S8192x128 [1] [0] [] [0] [] 1 ![1, 128]
  dot_S128x16384_S16384x128_S128x128_1_0_0_1_n_n_wf : DotDims.WF S128x16384 S16384x128 S128x128 [1] [0] [0] [1] [] []
  dot_S128x256_S256x256_S128x256_1_0_0_1_n_n_wf : DotDims.WF S128x256 S256x256 S128x256 [1] [0] [0] [1] [] []
  gather_S8192x256_S1024x1_S1024x256_1_0_n_n_0_1_1256_wf : GatherDims.WF S8192x256 S1024x1 S1024x256 [1] [0] [] [0] [] 1 ![1, 256]
  dot_S128x8192_S8192x256_S128x256_1_0_0_1_n_n_wf : DotDims.WF S128x8192 S8192x256 S128x256 [1] [0] [0] [1] [] []
  dot_S128x512_S512x256_S128x256_1_0_0_1_n_n_wf : DotDims.WF S128x512 S512x256 S128x256 [1] [0] [0] [1] [] []
  dot_S128x256_S256x64_S128x64_1_0_0_1_n_n_wf : DotDims.WF S128x256 S256x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x16384.size a ≤ S8192x16384.size a
  hwx0_0 : ∀ i : grid0.Coords, EltTy.bits .f32 = 32 ∨ (Rect.block (s := S8192x16384) S128x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .bf16 = 32 ∨ (Rect.block (s := S16384x128) S16384x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .f32 = 32 ∨ (Rect.block (s := S8192x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S8192x256.size a
  hwx0_4 : ∀ i : grid0.Coords, EltTy.bits .f32 = 32 ∨ (Rect.block (s := S8192x256) S128x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8192.size a ≤ S1024x8192.size a
  hwx1_0 : ∀ i : grid1.Coords, EltTy.bits .f32 = 32 ∨ (Rect.block (s := S1024x8192) S128x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .bf16 = 32 ∨ (Rect.block (s := S8192x256) S8192x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S1024x256.size a
  hwx1_2 : ∀ i : grid1.Coords, EltTy.bits .f32 = 32 ∨ (Rect.block (s := S1024x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S256x64.size a
  hwx1_4 : ∀ i : grid1.Coords, EltTy.bits .f32 = 32 ∨ (Rect.block (s := S256x64) S256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S1024x64.size a
  hwx1_5 : ∀ i : grid1.Coords, EltTy.bits .f32 = 32 ∨ (Rect.block (s := S1024x64) S128x64.size (cc1_transform_5 i) (hinb1_5 i)).WholeWords (EltTy.packing .f32)

variable [Facts₀]

def gather_S200000x128_S16384x1_S16384x128_1_0_n_n_0_1_1128 : GatherDims S200000x128 S16384x1 S16384x128 where
  offsetDims := [1]
  collapsedSliceDims := [0]
  operandBatchingDims := []
  startIndicesBatchingDims := []
  startIndexMap := [0]
  indexVectorDim := 1
  sliceSizes := ![1, 128]
  wf := gather_S200000x128_S16384x1_S16384x128_1_0_n_n_0_1_1128_wf
def gather_S16384_S8192x1_S8192_n_0_n_n_0_1_1 : GatherDims S16384 S8192x1 S8192 where
  offsetDims := []
  collapsedSliceDims := [0]
  operandBatchingDims := []
  startIndicesBatchingDims := []
  startIndexMap := [0]
  indexVectorDim := 1
  sliceSizes := ![1]
  wf := gather_S16384_S8192x1_S8192_n_0_n_n_0_1_1_wf
def gather_S200000x128_S8192x1_S8192x128_1_0_n_n_0_1_1128 : GatherDims S200000x128 S8192x1 S8192x128 where
  offsetDims := [1]
  collapsedSliceDims := [0]
  operandBatchingDims := []
  startIndicesBatchingDims := []
  startIndexMap := [0]
  indexVectorDim := 1
  sliceSizes := ![1, 128]
  wf := gather_S200000x128_S8192x1_S8192x128_1_0_n_n_0_1_1128_wf
def dot_S128x16384_S16384x128_S128x128_1_0_0_1_n_n : DotDims S128x16384 S16384x128 S128x128 where
  lhsContracting := [1]
  rhsContracting := [0]
  lhsNonContracting := [0]
  rhsNonContracting := [1]
  lhsBatch := []
  rhsBatch := []
  wf := dot_S128x16384_S16384x128_S128x128_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def gather_S8192x256_S1024x1_S1024x256_1_0_n_n_0_1_1256 : GatherDims S8192x256 S1024x1 S1024x256 where
  offsetDims := [1]
  collapsedSliceDims := [0]
  operandBatchingDims := []
  startIndicesBatchingDims := []
  startIndexMap := [0]
  indexVectorDim := 1
  sliceSizes := ![1, 256]
  wf := gather_S8192x256_S1024x1_S1024x256_1_0_n_n_0_1_1256_wf
def dot_S128x8192_S8192x256_S128x256_1_0_0_1_n_n : DotDims S128x8192 S8192x256 S128x256 where
  lhsContracting := [1]
  rhsContracting := [0]
  lhsNonContracting := [0]
  rhsNonContracting := [1]
  lhsBatch := []
  rhsBatch := []
  wf := dot_S128x8192_S8192x256_S128x256_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf
def dot_S128x256_S256x64_S128x64_1_0_0_1_n_n : DotDims S128x256 S256x64 S128x64 where
  lhsContracting := [1]
  rhsContracting := [0]
  lhsNonContracting := [0]
  rhsNonContracting := [1]
  lhsBatch := []
  rhsBatch := []
  wf := dot_S128x256_S256x64_S128x64_1_0_0_1_n_n_wf

abbrev win0_0 : Pipeline.Window sig grid0 :=
  Pipeline.Window.ofSpec (Memref.whole main_arg4) S128x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg5) S128x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S128x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S128x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S16384 : Shape := ⟨1, ![16384]⟩
abbrev S8192 : Shape := ⟨1, ![8192]⟩
abbrev S1024 : Shape := ⟨1, ![1024]⟩
abbrev S8192x16384 : Shape := ⟨2, ![8192, 16384]⟩
abbrev S1024x8192 : Shape := ⟨2, ![1024, 8192]⟩
abbrev S256x256 : Shape := ⟨2, ![256, 256]⟩
abbrev S512x256 : Shape := ⟨2, ![512, 256]⟩
abbrev S256x64 : Shape := ⟨2, ![256, 64]⟩
abbrev S_ : Shape := ⟨0, ![]⟩
abbrev S16384x1 : Shape := ⟨2, ![16384, 1]⟩
abbrev S16384x128 : Shape := ⟨2, ![16384, 128]⟩
abbrev S8192x128 : Shape := ⟨2, ![8192, 128]⟩
abbrev S8192x1 : Shape := ⟨2, ![8192, 1]⟩
abbrev S8192x256 : Shape := ⟨2, ![8192, 256]⟩
abbrev S1024x256 : Shape := ⟨2, ![1024, 256]⟩
abbrev S1024x1 : Shape := ⟨2, ![1024, 1]⟩
abbrev S1024x512 : Shape := ⟨2, ![1024, 512]⟩
abbrev S1024x64 : Shape := ⟨2, ![1024, 64]⟩

abbrev nBuf : Space → Nat
  | .hbm => 57
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S16384, .i32⟩
  | .hbm, ⟨2, _⟩ => ⟨S8192, .i32⟩
  | .hbm, ⟨3, _⟩ => ⟨S1024, .i32⟩
  | .hbm, ⟨4, _⟩ => ⟨S8192x16384, .f32⟩
  | .hbm, ⟨5, _⟩ => ⟨S1024x8192, .f32⟩
  | .hbm, ⟨6, _⟩ => ⟨S256x256, .f32⟩
  | .hbm, ⟨7, _⟩ => ⟨S512x256, .f32⟩
  | .hbm, ⟨8, _⟩ => ⟨S256x64, .f32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x128, .f32⟩
  | .hbm, ⟨18, _⟩ => ⟨S8192x128, .f32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S_, .i32⟩
  | .hbm, ⟨23, _⟩ => ⟨S8192, .i32⟩
  | .hbm, ⟨24, _⟩ => ⟨S8192, .i32⟩
  | .hbm, ⟨25, _⟩ => ⟨S8192, .i32⟩
  | .hbm, ⟨26, _⟩ => ⟨S8192x1, .i32⟩
  | .hbm, ⟨27, _⟩ => ⟨S8192x128, .f32⟩
  | .hbm, ⟨28, _⟩ => ⟨S8192x256, .f32⟩
  | .hbm, ⟨29, _⟩ => ⟨S8192x256, .f32⟩
  | .hbm, ⟨30, _⟩ => ⟨S_, .f32⟩
  | .hbm, ⟨31, _⟩ => ⟨S8192x256, .f32⟩
  | .hbm, ⟨32, _⟩ => ⟨S8192x256, .f32⟩
  | .hbm, ⟨33, _⟩ => ⟨S1024x256, .f32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1024x256, .f32⟩
  | .hbm, ⟨43, _⟩ => ⟨S1024x512, .f32⟩
  | .hbm, ⟨44, _⟩ => ⟨S1024x256, .f32⟩
  | .hbm, ⟨45, _⟩ => ⟨S_, .f32⟩
  | .hbm, ⟨46, _⟩ => ⟨S1024x256, .f32⟩
  | .hbm, ⟨47, _⟩ => ⟨S1024x256, .f32⟩
  | .hbm, ⟨48, _⟩ => ⟨S1024x64, .f32⟩
  | .hbm, ⟨49, _⟩ => ⟨S1024x64, .f32⟩
  | .hbm, ⟨50, _⟩ => ⟨S1024x64, .f32⟩
  | .hbm, ⟨51, _⟩ => ⟨S_, .f32⟩
  | .hbm, ⟨52, _⟩ => ⟨S1024x64, .f32⟩
  | .hbm, ⟨53, _⟩ => ⟨S1024x64, .f32⟩
  | .hbm, ⟨54, _⟩ => ⟨S_, .f32⟩
  | .hbm, ⟨55, _⟩ => ⟨S1024x64, .f32⟩
  | .hbm, ⟨56, _⟩ => ⟨S1024x64, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x128_S8192x128_S8192x256_d1 : Shape.Concatenates [S8192x128, S8192x128] S8192x256 1
  bcast_S_S8192x256 : S_.BroadcastsInDim S8192x256 (![] : Fin 0 → Fin S8192x256.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x512_d1 : Shape.Concatenates [S1024x256, S1024x256] S1024x512 1
  bcast_S_S1024x256 : S_.BroadcastsInDim S1024x256 (![] : Fin 0 → Fin S1024x256.rank)
  bcast_S_S1024x64 : S_.BroadcastsInDim S1024x64 (![] : Fin 0 → Fin S1024x64.rank)
  gather_S200000x128_S16384x1_S16384x128_1_0_n_n_0_1_1128_wf : GatherDims.WF S200000x128 S16384x1 S16384x128 [1] [0] [] [0] [] 1 ![1, 128]
  dot_S8192x16384_S16384x128_S8192x128_1_0_0_1_n_n_wf : DotDims.WF S8192x16384 S16384x128 S8192x128 [1] [0] [0] [1] [] []
  gather_S16384x128_S8192x1_S8192x128_1_0_n_n_0_1_1128_wf : GatherDims.WF S16384x128 S8192x1 S8192x128 [1] [0] [] [0] [] 1 ![1, 128]
  dot_S8192x256_S256x256_S8192x256_1_0_0_1_n_n_wf : DotDims.WF S8192x256 S256x256 S8192x256 [1] [0] [0] [1] [] []
  dot_S1024x8192_S8192x256_S1024x256_1_0_0_1_n_n_wf : DotDims.WF S1024x8192 S8192x256 S1024x256 [1] [0] [0] [1] [] []
  gather_S8192x256_S1024x1_S1024x256_1_0_n_n_0_1_1256_wf : GatherDims.WF S8192x256 S1024x1 S1024x256 [1] [0] [] [0] [] 1 ![1, 256]
  dot_S1024x512_S512x256_S1024x256_1_0_0_1_n_n_wf : DotDims.WF S1024x512 S512x256 S1024x256 [1] [0] [0] [1] [] []
  dot_S1024x256_S256x64_S1024x64_1_0_0_1_n_n_wf : DotDims.WF S1024x256 S256x64 S1024x64 [1] [0] [0] [1] [] []

variable [Facts₀]

def gather_S200000x128_S16384x1_S16384x128_1_0_n_n_0_1_1128 : GatherDims S200000x128 S16384x1 S16384x128 where
  offsetDims := [1]
  collapsedSliceDims := [0]
  operandBatchingDims := []
  startIndicesBatchingDims := []
  startIndexMap := [0]
  indexVectorDim := 1
  sliceSizes := ![1, 128]
  wf := gather_S200000x128_S16384x1_S16384x128_1_0_n_n_0_1_1128_wf
def dot_S8192x16384_S16384x128_S8192x128_1_0_0_1_n_n : DotDims S8192x16384 S16384x128 S8192x128 where
  lhsContracting := [1]
  rhsContracting := [0]
  lhsNonContracting := [0]
  rhsNonContracting := [1]
  lhsBatch := []
  rhsBatch := []
  wf := dot_S8192x16384_S16384x128_S8192x128_1_0_0_1_n_n_wf
def gather_S16384x128_S8192x1_S8192x128_1_0_n_n_0_1_1128 : GatherDims S16384x128 S8192x1 S8192x128 where
  offsetDims := [1]
  collapsedSliceDims := [0]
  operandBatchingDims := []
  startIndicesBatchingDims := []
  startIndexMap := [0]
  indexVectorDim := 1
  sliceSizes := ![1, 128]
  wf := gather_S16384x128_S8192x1_S8192x128_1_0_n_n_0_1_1128_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x8192_S8192x256_S1024x256_1_0_0_1_n_n : DotDims S1024x8192 S8192x256 S1024x256 where
  lhsContracting := [1]
  rhsContracting := [0]
  lhsNonContracting := [0]
  rhsNonContracting := [1]
  lhsBatch := []
  rhsBatch := []
  wf := dot_S1024x8192_S8192x256_S1024x256_1_0_0_1_n_n_wf
def gather_S8192x256_S1024x1_S1024x256_1_0_n_n_0_1_1256 : GatherDims S8192x256 S1024x1 S1024x256 where
  offsetDims := [1]
  collapsedSliceDims := [0]
  operandBatchingDims := []
  startIndicesBatchingDims := []
  startIndexMap := [0]
  indexVectorDim := 1
  sliceSizes := ![1, 256]
  wf := gather_S8192x256_S1024x1_S1024x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

class Facts : Prop extends Facts₀ where

variable [Facts]
-- ==== Proof.Layers.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember
import Idealize.ShloMosaic.Lib.KernelVsHost
import Idealize.ShloMosaic.Lib.IdealHost
noncomputable section
namespace Cert.Sage
open Idealize.ShloMosaic Idealize.ShloMosaic.ValueIdx

abbrev M (a b : Nat) : Shape := ⟨2, ![a, b]⟩
/-- the zero splat and the one splat, as the programs' literals spell them -/
abbrev zeroV (s : Shape) : FVec Ideal s .f32 := fun _ => Ideal.ofBits .f32 0x00000000#32
abbrev oneV (s : Shape) : FVec Ideal s .f32 := fun _ => Ideal.ofBits .f32 0x3F800000#32

def layer1 (R : Nat) {φ₁ φ₂ : FTy} (hc : Shape.Concatenates [M R 128, M R 128] (M R 256) 1)
    (mask : FVec Ideal (M R 16384) .f32) (f0 : FVec Ideal (M 16384 128) φ₁) (self : FVec Ideal (M R 128) .f32)
    (W1 : FVec Ideal (M 256 256) φ₂) : FVec Ideal (M R 256) .f32 :=
  maximumf (Host.dotGeneral (DotDims.plain R 256 256) none
      (concatenate (M R 256) 1 [⟨M R 128, self⟩, ⟨M R 128, Host.dotGeneral (DotDims.plain R 16384 128) none mask f0⟩] hc) W1)
    (zeroV (M R 256))

def layer2 (R : Nat) {φ₁ φ₂ φ₃ : FTy} (hc : Shape.Concatenates [M R 256, M R 256] (M R 512) 1)
    (mask : FVec Ideal (M R 8192) .f32) (f1 : FVec Ideal (M 8192 256) φ₁) (self : FVec Ideal (M R 256) .f32)
    (W2 : FVec Ideal (M 512 256) φ₂) (Wout : FVec Ideal (M 256 64) φ₃) : FVec Ideal (M R 64) .f32 :=
  Host.divf (oneV (M R 64)) (addf (oneV (M R 64)) (Host.exp (Host.negf (Host.dotGeneral (DotDims.plain R 256 64) none
    (maximumf (Host.dotGeneral (DotDims.plain R 512 256) none
        (concatenate (M R 512) 1 [⟨M R 256, self⟩, ⟨M R 256, Host.dotGeneral (DotDims.plain R 8192 256) none mask f1⟩] hc) W2)
      (zeroV (M R 256))) Wout))))

/-! ## Reading a two-piece concatenation along the columns

A row-by-columns concatenation `[x₁ | x₂]` read at `(r, k)` is `x₁` at `(r, k)` when `k` is below the first width, and
`x₂` at `(r, k - a)` otherwise. -/

theorem concat_cols_left {α : Type} {R a b c : Nat} (hc : Shape.Concatenates [M R a, M R b] (M R c) 1)
    (x₁ : (M R a).Idx → α) (x₂ : (M R b).Idx → α) (r : Fin R) (k : Fin c) (h : k.val < a) :
    concatenate (M R c) 1 [⟨M R a, x₁⟩, ⟨M R b, x₂⟩] hc (ix2 r k) = x₁ (ix2 r ⟨k.val, h⟩) := by
  refine concatenate_pair_apply_left 1 x₁ x₂ hc (ix2 r k) rfl (ix2 r ⟨k.val, h⟩) ?_
  intro d
  match d with
  | ⟨0, _⟩ => rfl
  | ⟨1, _⟩ => rfl

theorem concat_cols_right {α : Type} {R a b c : Nat} (hc : Shape.Concatenates [M R a, M R b] (M R c) 1)
    (x₁ : (M R a).Idx → α) (x₂ : (M R b).Idx → α) (r : Fin R) (k : Fin c) (h : a ≤ k.val) (h' : k.val - a < b) :
    concatenate (M R c) 1 [⟨M R a, x₁⟩, ⟨M R b, x₂⟩] hc (ix2 r k) = x₂ (ix2 r ⟨k.val - a, h'⟩) := by
  refine concatenate_pair_apply_right 1 x₁ x₂ hc (ix2 r k) rfl rfl (ix2 r ⟨k.val - a, h'⟩) ?_ ?_
  · intro d hd
    match d, hd with
    | ⟨0, _⟩, _ => rfl
    | ⟨1, _⟩, hd => exact absurd rfl hd
  · show (k.val - a) + a = k.val
    omega

/-- the two widths of a column concatenation add up to the result's width -/
theorem concat_cols_width {R a b c : Nat} (hc : Shape.Concatenates [M R a, M R b] (M R c) 1) : a + b = c := by
  have := hc.2.2
  simpa using this

/-! ## One hidden layer, at any widths: `relu([self | mask·f]·W)`

Row `p` of the layer at `R'` rows is row `ρ p` of the layer at `R` rows once the two row-indexed operands (`mask`,
`self`) agree along `ρ`: every sum that makes up the entry `(p, q)` ranges over columns only, and each of its terms
reads the row-indexed operands at row `p` (resp. `ρ p`) alone. Pure congruence; no arithmetic of the extended reals. -/

theorem hidden_rows {R R' n a b c d : Nat} {φ₁ φ₂ : FTy} (ρ : Fin R' → Fin R)
    (hc : Shape.Concatenates [M R a, M R b] (M R c) 1) (hc' : Shape.Concatenates [M R' a, M R' b] (M R' c) 1)
    (mask : FVec Ideal (M R n) .f32) (mask' : FVec Ideal (M R' n) .f32) (f : FVec Ideal (M n b) φ₁)
    (self : FVec Ideal (M R a) .f32) (self' : FVec Ideal (M R' a) .f32) (W : FVec Ideal (M c d) φ₂)
    (hm : ∀ (p : Fin R') (l : Fin n), mask' (ix2 p l) = mask (ix2 (ρ p) l))
    (hs : ∀ (p : Fin R') (k : Fin a), self' (ix2 p k) = self (ix2 (ρ p) k)) (p : Fin R') (q : Fin d) :
    maximumf (Host.dotGeneral (DotDims.plain R' c d) none
        (concatenate (M R' c) 1 [⟨M R' a, self'⟩, ⟨M R' b, Host.dotGeneral (DotDims.plain R' n b) none mask' f⟩] hc') W)
      (zeroV (M R' d)) (ix2 p q)
    = maximumf (Host.dotGeneral (DotDims.plain R c d) none
        (concatenate (M R c) 1 [⟨M R a, self⟩, ⟨M R b, Host.dotGeneral (DotDims.plain R n b) none mask f⟩] hc) W)
      (zeroV (M R d)) (ix2 (ρ p) q) := by
  have hab : a + b = c := concat_cols_width hc
  rw [maximumf_apply, maximumf_apply, StackMember.dotGeneral_plain_apply, StackMember.dotGeneral_plain_apply]
  congr 1
  refine Finset.sum_congr rfl fun k _ => ?_
  congr 1
  by_cases h : k.val < a
  · rw [concat_cols_left hc' _ _ p k h, concat_cols_left hc _ _ (ρ p) k h, hs]
  · have h1 : a ≤ k.val := Nat.le_of_not_lt h
    have h2 : k.val - a < b := by have := k.isLt; omega
    rw [concat_cols_right hc' _ _ p k h1 h2, concat_cols_right hc _ _ (ρ p) k h1 h2, StackMember.dotGeneral_plain_apply,
      StackMember.dotGeneral_plain_apply]
    refine Finset.sum_congr rfl fun l _ => ?_
    rw [hm]

/-- row p of layer 1 at R' rows is row ρ p of layer 1 at R rows, when the row-indexed operands agree along ρ -/
theorem layer1_rows {R R' : Nat} {φ₁ φ₂ : FTy} (ρ : Fin R' → Fin R)
    (hc : Shape.Concatenates [M R 128, M R 128] (M R 256) 1) (hc' : Shape.Concatenates [M R' 128, M R' 128] (M R' 256) 1)
    (mask : FVec Ideal (M R 16384) .f32) (mask' : FVec Ideal (M R' 16384) .f32) (f0 : FVec Ideal (M 16384 128) φ₁)
    (self : FVec Ideal (M R 128) .f32) (self' : FVec Ideal (M R' 128) .f32) (W1 : FVec Ideal (M 256 256) φ₂)
    (hm : ∀ (p : Fin R') (l : Fin 16384), mask' (ix2 p l) = mask (ix2 (ρ p) l))
    (hs : ∀ (p : Fin R') (k : Fin 128), self' (ix2 p k) = self (ix2 (ρ p) k)) (p : Fin R') (q : Fin 256) :
    layer1 R' hc' mask' f0 self' W1 (ix2 p q) = layer1 R hc mask f0 self W1 (ix2 (ρ p) q) := by
  unfold layer1
  exact hidden_rows ρ hc hc' mask mask' f0 self self' W1 hm hs p q

theorem layer2_rows {R R' : Nat} {φ₁ φ₂ φ₃ : FTy} (ρ : Fin R' → Fin R)
    (hc : Shape.Concatenates [M R 256, M R 256] (M R 512) 1) (hc' : Shape.Concatenates [M R' 256, M R' 256] (M R' 512) 1)
    (mask : FVec Ideal (M R 8192) .f32) (mask' : FVec Ideal (M R' 8192) .f32) (f1 : FVec Ideal (M 8192 256) φ₁)
    (self : FVec Ideal (M R 256) .f32) (self' : FVec Ideal (M R' 256) .f32) (W2 : FVec Ideal (M 512 256) φ₂) (Wout : FVec Ideal (M 256 64) φ₃)
    (hm : ∀ (p : Fin R') (l : Fin 8192), mask' (ix2 p l) = mask (ix2 (ρ p) l))
    (hs : ∀ (p : Fin R') (k : Fin 256), self' (ix2 p k) = self (ix2 (ρ p) k)) (p : Fin R') (q : Fin 64) :
    layer2 R' hc' mask' f1 self' W2 Wout (ix2 p q) = layer2 R hc mask f1 self W2 Wout (ix2 (ρ p) q) := by
  -- the entry of the output product: a sum over the hidden layer's columns, each term reading the hidden layer at row p
  have key : Host.dotGeneral (DotDims.plain R' 256 64) none
        (maximumf (Host.dotGeneral (DotDims.plain R' 512 256) none
            (concatenate (M R' 512) 1 [⟨M R' 256, self'⟩, ⟨M R' 256, Host.dotGeneral (DotDims.plain R' 8192 256) none mask' f1⟩] hc') W2)
          (zeroV (M R' 256))) Wout (ix2 p q)
      = Host.dotGeneral (DotDims.plain R 256 64) none
        (maximumf (Host.dotGeneral (DotDims.plain R 512 256) none
            (concatenate (M R 512) 1 [⟨M R 256, self⟩, ⟨M R 256, Host.dotGeneral (DotDims.plain R 8192 256) none mask f1⟩] hc) W2)
          (zeroV (M R 256))) Wout (ix2 (ρ p) q) := by
    rw [StackMember.dotGeneral_plain_apply, StackMember.dotGeneral_plain_apply]
    refine Finset.sum_congr rfl fun k _ => ?_
    rw [hidden_rows ρ hc hc' mask mask' f1 self self' W2 hm hs p k]
  -- the logistic is applied entry by entry
  unfold layer2
  show FloatOps.hostDivf _ (FloatOps.addf _ (FloatOps.hostUnary .exp (FloatOps.hostNegf _)))
    = FloatOps.hostDivf _ (FloatOps.addf _ (FloatOps.hostUnary .exp (FloatOps.hostNegf _)))
  rw [key]

/-- the kernel's one-operation logistic is the host's expansion of it, at the ideal values, with the literal 1.0 -/
theorem logistic_eq_host {s : Shape} (v : FVec Ideal s .f32) :
    logistic v = Host.divf (oneV s) (addf (oneV s) (Host.exp (Host.negf v))) := by
  funext i
  show FloatOps.logistic (v i)
    = FloatOps.hostDivf (Ideal.ofBits .f32 0x3F800000#32)
        (FloatOps.addf (Ideal.ofBits .f32 0x3F800000#32) (FloatOps.hostUnary .exp (FloatOps.hostNegf (v i))))
  rw [Ideal.ofBits_one_f32]
  rfl

end Cert.Sage
end
-- ==== Proof.Payloads.lean ====
import proofs.«164521_j15985868276246_2_alg».proof.Proof.Gen.KernelIdeal.Skeleton
import proofs.«164521_j15985868276246_2_alg».proof.Proof.Layers
import Idealize.ShloMosaic.Lib.KernelVsHost
import Idealize.ShloMosaic.Lib.Pipeline.Value
set_option maxRecDepth 16384
noncomputable section
namespace Cert.KernelIdeal.Val
open Cert.KernelIdeal Cert.KernelIdeal.Gen Cert.Sage Idealize.ShloMosaic Idealize.ShloMosaic.ValueIdx

theorem cat128_256 : Shape.Concatenates [M 128 128, M 128 128] (M 128 256) 1 := by decide
theorem cat128_512 : Shape.Concatenates [M 128 256, M 128 256] (M 128 512) 1 := by decide

/-! ## The generated contraction records are the plain row-by-column product

Each record contracts the left operand's columns against the right operand's rows, with no batch axes: field by field
the record `DotDims.plain` builds. -/

theorem dot_k0_a [Facts₀] : dot_S128x16384_S16384x128_S128x128_1_0_0_1_n_n = DotDims.plain 128 16384 128 := rfl
theorem dot_k0_b [Facts₀] : dot_S128x256_S256x256_S128x256_1_0_0_1_n_n = DotDims.plain 128 256 256 := rfl
theorem dot_k1_a [Facts₀] : dot_S128x8192_S8192x256_S128x256_1_0_0_1_n_n = DotDims.plain 128 8192 256 := rfl
theorem dot_k1_b [Facts₀] : dot_S128x512_S512x256_S128x256_1_0_0_1_n_n = DotDims.plain 128 512 256 := rfl
theorem dot_k1_c [Facts₀] : dot_S128x256_S256x64_S128x64_1_0_0_1_n_n = DotDims.plain 128 256 64 := rfl

/-- over the extended reals a narrowing of the format changes no entry: every format's values are the same extended
    reals, so the narrowed array is the array itself -/
theorem truncf_eq {s : Shape} {φ ψ : FTy} (a : FVec Ideal s φ) (h : ψ.bits < φ.bits) : (truncf ψ a h : FVec Ideal s ψ) = a := rfl

/-! ## The two stored values

Each body's value is a chain of operations that are identities here (a narrowing of the format, a reshape to the same
shape), products accumulated into a zero splat (the host's products), one column concatenation, a maximum against the
zero splat and, in the second body, the one-operation logistic (the host's expansion of it). Removing the identities
leaves the layer's term at 128 rows; what then differs is only how the shapes, the zero and the formats are spelled. -/

/-- the first body stores layer 1 of its blocks -/
theorem pay0_eq (x0 : Vec Ideal S128x16384 .f32) (x1 : Vec Ideal S16384x128 .bf16) (x2 : Vec Ideal S128x128 .f32) (x3 : Vec Ideal S256x256 .f32) :
    k0_pay1 (F := Ideal) x0 x1 x2 x3 = layer1 128 (φ₁ := .bf16) (φ₂ := .f32) cat128_256 x0 x1 x2 x3 := by
  unfold k0_pay1 layer1
  dsimp only
  rw [dot_k0_a, dot_k0_b, matmul_zero_eq_dotGeneral, matmul_zero_eq_dotGeneral, shapeCast_self, shapeCast_self,
    truncf_eq, truncf_eq, truncf_eq]
  rfl
/-- the second body stores layer 2 of its blocks -/
theorem pay1_eq (x0 : Vec Ideal S128x8192 .f32) (x1 : Vec Ideal S8192x256 .bf16) (x2 : Vec Ideal S128x256 .f32) (x3 : Vec Ideal S512x256 .f32) (x4 : Vec Ideal S256x64 .f32) :
    k1_pay1 (F := Ideal) x0 x1 x2 x3 x4 = layer2 128 (φ₁ := .bf16) (φ₂ := .f32) (φ₃ := .f32) cat128_512 x0 x1 x2 x3 x4 := by
  unfold k1_pay1 layer2
  dsimp only
  rw [dot_k1_a, dot_k1_b, dot_k1_c, matmul_zero_eq_dotGeneral, matmul_zero_eq_dotGeneral, matmul_zero_eq_dotGeneral,
    shapeCast_self, shapeCast_self, truncf_eq, truncf_eq, truncf_eq, truncf_eq, truncf_eq, logistic_eq_host]
  rfl

end Cert.KernelIdeal.Val
end
-- ==== Proof.FirstCall.lean ====
/-
  The first call's result array, as one function of the arrays the call reads.

  The call runs 64 grid points.  Point t stages rows 128 t … 128 t + 127 of the mask and of the self rows, the
  whole of the resident operand and of the weights, and writes back rows 128 t … 128 t + 127 of the result.  What it
  writes back is layer 1 on those 128 rows, and a row of layer 1 depends only on that row of the mask and of the self
  rows; so the blocks are the row blocks of layer 1 on all 8192 rows, and they tile the array.
-/
import proofs.«164521_j15985868276246_2_alg».proof.Proof.Gen.KernelIdeal.Frame
import proofs.«164521_j15985868276246_2_alg».proof.Proof.Layers
import proofs.«164521_j15985868276246_2_alg».proof.Proof.Payloads
import Idealize.ShloMosaic.Lib.Pipeline.Value

set_option maxRecDepth 16384

noncomputable section

namespace Cert.KernelIdeal.Val

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem cat8192_256 : Shape.Concatenates [M 8192 128, M 8192 128] (M 8192 256) 1 := by decide

theorem origin2 : (![0, 0] : Fin 2 → Nat) = fun _ => 0 := funext fun a => by fin_cases a <;> rfl

/-- Layer 1 on all 8192 rows, over the arrays as the call finds them. -/
def hidden0 (c : Dev nD) : FVec Ideal (M 8192 256) .f32 :=
  layer1 8192 (φ₁ := .bf16) (φ₂ := .f32) cat8192_256 (V c main_arg4) (V c main_v7) (V c main_v21) (V c main_arg6)

/-- The printed index maps over the 64 points: a row-blocked window sits at block row t, a whole window at the origin. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem lt64 (t : Fin cfg0.N) : t.val < 64 := lt_of_lt_of_eq t.isLt N_0

/-- An index of the array is in point `t`'s block iff each coordinate is in the block's range on its axis. -/
theorem mem_blk0 (t : Fin cfg0.N) (i : S8192x256.Idx) :
    i ∈ ((cfg0.win 4).blk t).view.set ↔ ∀ a : Fin 2, win0_4.index t a * S128x256.size a ≤ (i a).val ∧ (i a).val < win0_4.index t a * S128x256.size a + S128x256.size a := by
  show i ∈ ((View.whole main_v22).slice (win0_4.rect t)).set ↔ _
  rw [View.set_slice_whole, Rect.mem_set_unit]
  exact Iff.rfl

/-- Point `t` writes back rows 128 t … 128 t + 127 of layer 1 on all rows. -/
theorem flushed0_eq (c : Dev nD) (t : Fin cfg0.N) :
    (dat0 V c).flushed 4 t = ((cfg0.win 4).blk t).view.read (Elt Ideal) (hidden0 V c) := by
  show (cfg0.win 4).cut (grid0.coords t) ((dat0 V c).after 4 t) = _
  rw [after0_4]
  unfold out0_4
  rw [View.canon_unit_zero origin2]
  simp only [View.ld_unit_zero (S := S128x16384) origin2, View.ld_unit_zero (S := S16384x128) origin2, View.ld_unit_zero (S := S128x128) origin2, View.ld_unit_zero (S := S256x256) origin2]
  rw [pay0_eq]
  funext j
  obtain ⟨p, q, rfl⟩ : ∃ (p : Fin 128) (q : Fin 256), j = ix2 p q := ⟨j 0, j 1, eq_ix2 j⟩
  obtain ⟨e00, e01, e10, e11, e20, e21, e30, e31, e40, e41⟩ := idx0_facts t
  have ht := lt64 t
  have hp := p.isLt
  have hq := q.isLt
  show layer1 128 (φ₁ := .bf16) (φ₂ := .f32) _ (iblk0 V c 0 t) (iblk0 V c 1 t) (iblk0 V c 2 t) (iblk0 V c 3 t) (ix2 p q)
     = hidden0 V c (((cfg0.win 4).blk t).view.emb (ix2 p q))
  have hemb : ((cfg0.win 4).blk t).view.emb (ix2 p q) = ix2 (⟨128 * t.val + p.val, by omega⟩ : Fin 8192) q := by
    funext a; apply Fin.ext
    match a with
    | ⟨0, _⟩ => show win0_4.index t (0 : Fin 2) * 128 + 1 * p.val = 128 * t.val + p.val; omega
    | ⟨1, _⟩ => show win0_4.index t (1 : Fin 2) * 256 + 1 * q.val = q.val; omega
  rw [hemb]
  unfold hidden0
  have h1 : (iblk0 V c 1 t : Vec Ideal S16384x128 .bf16) = V c main_v7 := by
    funext y
    have hy0 := (y 0).isLt
    have hy1 := (y 1).isLt
    show V c main_v7 (((cfg0.win 1).blk t).view.emb y) = V c main_v7 y
    refine congrArg (V c main_v7) ?_
    funext a; apply Fin.ext
    match a with
    | ⟨0, _⟩ => show win0_1.index t (0 : Fin 2) * 16384 + 1 * (y 0).val = (y 0).val; omega
    | ⟨1, _⟩ => show win0_1.index t (1 : Fin 2) * 128 + 1 * (y 1).val = (y 1).val; omega
  have h3 : (iblk0 V c 3 t : Vec Ideal S256x256 .f32) = V c main_arg6 := by
    funext y
    show V c main_arg6 (((cfg0.win 3).blk t).view.emb y) = V c main_arg6 y
    refine congrArg (V c main_arg6) ?_
    funext a; apply Fin.ext
    match a with
    | ⟨0, _⟩ => show win0_3.index t (0 : Fin 2) * 256 + 1 * (y 0).val = (y 0).val; omega
    | ⟨1, _⟩ => show win0_3.index t (1 : Fin 2) * 256 + 1 * (y 1).val = (y 1).val; omega
  have hm : ∀ (p : Fin 128) (l : Fin 16384), (iblk0 V c 0 t : Vec Ideal S128x16384 .f32) (ix2 p l)
      = V c main_arg4 (ix2 (⟨128 * t.val + p.val, by have := p.isLt; omega⟩ : Fin 8192) l) := by
    intro p l
    have hp := p.isLt
    show V c main_arg4 (((cfg0.win 0).blk t).view.emb (ix2 p l)) = _
    refine congrArg (V c main_arg4) ?_
    funext a; apply Fin.ext
    match a with
    | ⟨0, _⟩ => show win0_0.index t (0 : Fin 2) * 128 + 1 * p.val = 128 * t.val + p.val; omega
    | ⟨1, _⟩ => show win0_0.index t (1 : Fin 2) * 16384 + 1 * l.val = l.val; omega
  have hs : ∀ (p : Fin 128) (k : Fin 128), (iblk0 V c 2 t : Vec Ideal S128x128 .f32) (ix2 p k)
      = V c main_v21 (ix2 (⟨128 * t.val + p.val, by have := p.isLt; omega⟩ : Fin 8192) k) := by
    intro p k
    have hp := p.isLt
    show V c main_v21 (((cfg0.win 2).blk t).view.emb (ix2 p k)) = _
    refine congrArg (V c main_v21) ?_
    funext a; apply Fin.ext
    match a with
    | ⟨0, _⟩ => show win0_2.index t (0 : Fin 2) * 128 + 1 * p.val = 128 * t.val + p.val; omega
    | ⟨1, _⟩ => show win0_2.index t (1 : Fin 2) * 128 + 1 * k.val = k.val; omega
  rw [h1, h3]
  exact layer1_rows (φ₁ := .bf16) (φ₂ := .f32) (fun p : Fin 128 => (⟨128 * t.val + p.val, by have := p.isLt; omega⟩ : Fin 8192))
    cat8192_256 _ (V c main_arg4) (iblk0 V c 0 t) (V c main_v7) (V c main_v21) (iblk0 V c 2 t) (V c main_arg6) hm hs p q

/-- The 64 blocks tile the array: row r is in block r / 128. -/
theorem cover0 (i : S8192x256.Idx) : ∃ t : Fin cfg0.N, (cfg0.win 4).flush t = true ∧ i ∈ ((cfg0.win 4).blk t).view.set := by
  have hi0 : (i 0).val < 8192 := (i 0).isLt
  have hi1 : (i 1).val < 256 := (i 1).isLt
  have hlt : (i 0).val / 128 < cfg0.N := lt_of_lt_of_eq (by omega : (i 0).val / 128 < 64) N_0.symm
  refine ⟨⟨(i 0).val / 128, hlt⟩, flush0_4 _, ?_⟩
  rw [mem_blk0]
  obtain ⟨-, -, -, -, -, -, -, -, e40, e41⟩ := idx0_facts ⟨(i 0).val / 128, hlt⟩
  intro a
  match a with
  | ⟨0, _⟩ =>
    show win0_4.index ⟨(i 0).val / 128, hlt⟩ (0 : Fin 2) * 128 ≤ (i 0).val ∧ (i 0).val < win0_4.index ⟨(i 0).val / 128, hlt⟩ (0 : Fin 2) * 128 + 128
    rw [e40]; show (i 0).val / 128 * 128 ≤ (i 0).val ∧ (i 0).val < (i 0).val / 128 * 128 + 128; omega
  | ⟨1, _⟩ =>
    show win0_4.index ⟨(i 0).val / 128, hlt⟩ (1 : Fin 2) * 256 ≤ (i 1).val ∧ (i 1).val < win0_4.index ⟨(i 0).val / 128, hlt⟩ (1 : Fin 2) * 256 + 256
    omega

/-- THE FIRST CALL'S ARRAY after the call: layer 1 on all 8192 rows of the arrays the call finds. -/
theorem array0 (c : Dev nD) : (dat0 V c).arrAt 4 cfg0.N = hidden0 V c :=
  (dat0 V c).arrAt_eq_of_cover 4 (hidden0 V c) (fun t _ => flushed0_eq V c t) (cover0)

end Cert.KernelIdeal.Val

end
-- ==== Proof.SecondCall.lean ====
/-
  The second call's result array, as one function of the arrays the call reads.

  The call runs 8 grid points.  Point t stages rows 128 t … 128 t + 127 of the second mask and of the self rows, the
  whole of the resident hidden features and of the two weight matrices, and writes back rows 128 t … 128 t + 127 of
  the result.  What it writes back is layer 2 on those 128 rows, and a row of layer 2 depends only on that row of the
  mask and of the self rows; so the blocks are the row blocks of layer 2 on all 1024 rows, and they tile the array.
-/
import proofs.«164521_j15985868276246_2_alg».proof.Proof.Gen.KernelIdeal.Frame
import proofs.«164521_j15985868276246_2_alg».proof.Proof.Layers
import proofs.«164521_j15985868276246_2_alg».proof.Proof.Payloads
import Idealize.ShloMosaic.Lib.Pipeline.Value

set_option maxRecDepth 16384

noncomputable section

namespace Cert.KernelIdeal.Val

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem cat1024_512 : Shape.Concatenates [M 1024 256, M 1024 256] (M 1024 512) 1 := by decide

theorem origin2' : (![0, 0] : Fin 2 → Nat) = fun _ => 0 := funext fun a => by fin_cases a <;> rfl

/-- Layer 2 on all 1024 rows, over the arrays as the call finds them. -/
def out1 (c : Dev nD) : FVec Ideal (M 1024 64) .f32 :=
  layer2 1024 (φ₁ := .bf16) (φ₂ := .f32) (φ₃ := .f32) cat1024_512 (V c main_arg5) (V c main_v23) (V c main_v30) (V c main_arg7) (V c main_arg8)

/-- The printed index maps over the 8 points: a row-blocked window sits at block row t, a whole window at the origin. -/
theorem idx1_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt8 (t : Fin cfg1.N) : t.val < 8 := lt_of_lt_of_eq t.isLt N_1

/-- An index of the array is in point `t`'s block iff each coordinate is in the block's range on its axis. -/
theorem mem_blk1 (t : Fin cfg1.N) (i : S1024x64.Idx) :
    i ∈ ((cfg1.win 5).blk t).view.set ↔ ∀ a : Fin 2, win1_5.index t a * S128x64.size a ≤ (i a).val ∧ (i a).val < win1_5.index t a * S128x64.size a + S128x64.size a := by
  show i ∈ ((View.whole main_v31).slice (win1_5.rect t)).set ↔ _
  rw [View.set_slice_whole, Rect.mem_set_unit]
  exact Iff.rfl

/-- Point `t` writes back rows 128 t … 128 t + 127 of layer 2 on all rows. -/
theorem flushed1_eq (c : Dev nD) (t : Fin cfg1.N) :
    (dat1 V c).flushed 5 t = ((cfg1.win 5).blk t).view.read (Elt Ideal) (out1 V c) := by
  show (cfg1.win 5).cut (grid1.coords t) ((dat1 V c).after 5 t) = _
  rw [after1_5]
  unfold out1_5
  rw [View.canon_unit_zero origin2']
  simp only [View.ld_unit_zero (S := S128x8192) origin2', View.ld_unit_zero (S := S8192x256) origin2', View.ld_unit_zero (S := S128x256) origin2', View.ld_unit_zero (S := S512x256) origin2', View.ld_unit_zero (S := S256x64) origin2']
  rw [pay1_eq]
  funext j
  obtain ⟨p, q, rfl⟩ : ∃ (p : Fin 128) (q : Fin 64), j = ix2 p q := ⟨j 0, j 1, eq_ix2 j⟩
  obtain ⟨e00, e01, e10, e11, e20, e21, e30, e31, e40, e41, e50, e51⟩ := idx1_facts t
  have ht := lt8 t
  have hp := p.isLt
  have hq := q.isLt
  show layer2 128 (φ₁ := .bf16) (φ₂ := .f32) (φ₃ := .f32) _ (iblk1 V c 0 t) (iblk1 V c 1 t) (iblk1 V c 2 t) (iblk1 V c 3 t) (iblk1 V c 4 t) (ix2 p q)
     = out1 V c (((cfg1.win 5).blk t).view.emb (ix2 p q))
  have hemb : ((cfg1.win 5).blk t).view.emb (ix2 p q) = ix2 (⟨128 * t.val + p.val, by omega⟩ : Fin 1024) q := by
    funext a; apply Fin.ext
    match a with
    | ⟨0, _⟩ => show win1_5.index t (0 : Fin 2) * 128 + 1 * p.val = 128 * t.val + p.val; omega
    | ⟨1, _⟩ => show win1_5.index t (1 : Fin 2) * 64 + 1 * q.val = q.val; omega
  rw [hemb]
  unfold out1
  have h1 : (iblk1 V c 1 t : Vec Ideal S8192x256 .bf16) = V c main_v23 := by
    funext y
    have hy0 := (y 0).isLt
    have hy1 := (y 1).isLt
    show V c main_v23 (((cfg1.win 1).blk t).view.emb y) = V c main_v23 y
    refine congrArg (V c main_v23) ?_
    funext a; apply Fin.ext
    match a with
    | ⟨0, _⟩ => show win1_1.index t (0 : Fin 2) * 8192 + 1 * (y 0).val = (y 0).val; omega
    | ⟨1, _⟩ => show win1_1.index t (1 : Fin 2) * 256 + 1 * (y 1).val = (y 1).val; omega
  have h3 : (iblk1 V c 3 t : Vec Ideal S512x256 .f32) = V c main_arg7 := by
    funext y
    show V c main_arg7 (((cfg1.win 3).blk t).view.emb y) = V c main_arg7 y
    refine congrArg (V c main_arg7) ?_
    funext a; apply Fin.ext
    match a with
    | ⟨0, _⟩ => show win1_3.index t (0 : Fin 2) * 512 + 1 * (y 0).val = (y 0).val; omega
    | ⟨1, _⟩ => show win1_3.index t (1 : Fin 2) * 256 + 1 * (y 1).val = (y 1).val; omega
  have h4 : (iblk1 V c 4 t : Vec Ideal S256x64 .f32) = V c main_arg8 := by
    funext y
    show V c main_arg8 (((cfg1.win 4).blk t).view.emb y) = V c main_arg8 y
    refine congrArg (V c main_arg8) ?_
    funext a; apply Fin.ext
    match a with
    | ⟨0, _⟩ => show win1_4.index t (0 : Fin 2) * 256 + 1 * (y 0).val = (y 0).val; omega
    | ⟨1, _⟩ => show win1_4.index t (1 : Fin 2) * 64 + 1 * (y 1).val = (y 1).val; omega
  have hm : ∀ (p : Fin 128) (l : Fin 8192), (iblk1 V c 0 t : Vec Ideal S128x8192 .f32) (ix2 p l)
      = V c main_arg5 (ix2 (⟨128 * t.val + p.val, by have := p.isLt; omega⟩ : Fin 1024) l) := by
    intro p l
    have hp := p.isLt
    show V c main_arg5 (((cfg1.win 0).blk t).view.emb (ix2 p l)) = _
    refine congrArg (V c main_arg5) ?_
    funext a; apply Fin.ext
    match a with
    | ⟨0, _⟩ => show win1_0.index t (0 : Fin 2) * 128 + 1 * p.val = 128 * t.val + p.val; omega
    | ⟨1, _⟩ => show win1_0.index t (1 : Fin 2) * 8192 + 1 * l.val = l.val; omega
  have hs : ∀ (p : Fin 128) (k : Fin 256), (iblk1 V c 2 t : Vec Ideal S128x256 .f32) (ix2 p k)
      = V c main_v30 (ix2 (⟨128 * t.val + p.val, by have := p.isLt; omega⟩ : Fin 1024) k) := by
    intro p k
    have hp := p.isLt
    show V c main_v30 (((cfg1.win 2).blk t).view.emb (ix2 p k)) = _
    refine congrArg (V c main_v30) ?_
    funext a; apply Fin.ext
    match a with
    | ⟨0, _⟩ => show win1_2.index t (0 : Fin 2) * 128 + 1 * p.val = 128 * t.val + p.val; omega
    | ⟨1, _⟩ => show win1_2.index t (1 : Fin 2) * 256 + 1 * k.val = k.val; omega
  rw [h1, h3, h4]
  exact layer2_rows (φ₁ := .bf16) (φ₂ := .f32) (φ₃ := .f32) (fun p : Fin 128 => (⟨128 * t.val + p.val, by have := p.isLt; omega⟩ : Fin 1024))
    cat1024_512 _ (V c main_arg5) (iblk1 V c 0 t) (V c main_v23) (V c main_v30) (iblk1 V c 2 t) (V c main_arg7) (V c main_arg8) hm hs p q

/-- The 8 blocks tile the array: row r is in block r / 128. -/
theorem cover1 (i : S1024x64.Idx) : ∃ t : Fin cfg1.N, (cfg1.win 5).flush t = true ∧ i ∈ ((cfg1.win 5).blk t).view.set := by
  have hi0 : (i 0).val < 1024 := (i 0).isLt
  have hi1 : (i 1).val < 64 := (i 1).isLt
  have hlt : (i 0).val / 128 < cfg1.N := lt_of_lt_of_eq (by omega : (i 0).val / 128 < 8) N_1.symm
  refine ⟨⟨(i 0).val / 128, hlt⟩, flush1_5 _, ?_⟩
  rw [mem_blk1]
  obtain ⟨-, -, -, -, -, -, -, -, -, -, e50, e51⟩ := idx1_facts ⟨(i 0).val / 128, hlt⟩
  intro a
  match a with
  | ⟨0, _⟩ =>
    show win1_5.index ⟨(i 0).val / 128, hlt⟩ (0 : Fin 2) * 128 ≤ (i 0).val ∧ (i 0).val < win1_5.index ⟨(i 0).val / 128, hlt⟩ (0 : Fin 2) * 128 + 128
    rw [e50]; show (i 0).val / 128 * 128 ≤ (i 0).val ∧ (i 0).val < (i 0).val / 128 * 128 + 128; omega
  | ⟨1, _⟩ =>
    show win1_5.index ⟨(i 0).val / 128, hlt⟩ (1 : Fin 2) * 64 ≤ (i 1).val ∧ (i 1).val < win1_5.index ⟨(i 0).val / 128, hlt⟩ (1 : Fin 2) * 64 + 64
    omega

/-- THE SECOND CALL'S ARRAY after the call: layer 2 on all 1024 rows of the arrays the call finds. -/
theorem array1 (c : Dev nD) : (dat1 V c).arrAt 5 cfg1.N = out1 V c :=
  (dat1 V c).arrAt_eq_of_cover 5 (out1 V c) (fun t _ => flushed1_eq V c t) (cover1)

end Cert.KernelIdeal.Val

end
-- ==== Proof.KernelRun.lean ====
/-
  The idealized kernel's run with its result NAMED.

  The program is two pipelined calls among three stretches of host operations.  Its run from any launch memory
  ends, on every core, with every buffer that outlives the calls holding the last value of a fold through the
  program: the launch contents, the first stretch's operations applied, the first call's result array at what its
  64 row blocks write back, the second stretch's operations applied, the second call's result array at what its 8
  row blocks write back.  Read at the program's result that fold is the second call's array; read at an argument
  it walks back to the launch memory, since no operation and no call writes an argument.
-/
import proofs.«164521_j15985868276246_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the calls at the
    fold's last value. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The program's result is the second call's result array. -/
theorem result_ref : Pipeline.arrRef spec1 5 = main_v31 := rfl

/-- The run with the result named: the second call's array after its 8 row blocks are written back, over the
    contents the call is entered with; the arguments as launched. -/
theorem run_named : θ_run defs (onTc (τ := τ) (main (F := F))) ⟨m, fun _ => 0, ρ⟩ (fun r => ∀ c : Dev nD,
      r.2.mem ((c.tc : Thread nD τ).loc main_v31) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨(h c _ (mem_uc main_v31 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)
    (run_fold m ρ)

/-! ## What each call finds in the arrays it reads that are arguments -/

/-- No operation before the first call writes `main_arg3`: the first call finds it as launched. -/
theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- No operation before the first call writes `main_arg4`: the first call finds it as launched. -/
theorem W1_main_arg4 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- No operation before the first call writes `main_arg5`: the first call finds it as launched. -/
theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- No operation before the first call writes `main_arg6`: the first call finds it as launched. -/
theorem W1_main_arg6 (c : Dev nD) : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- No operation before the first call writes `main_arg7`: the first call finds it as launched. -/
theorem W1_main_arg7 (c : Dev nD) : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- No operation before the first call writes `main_arg8`: the first call finds it as launched. -/
theorem W1_main_arg8 (c : Dev nD) : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The first call writes only its result array: `main_arg3` leaves it as launched. -/
theorem W2_main_arg3 (c : Dev nD) : W2 m ρ c (Proc.devRef .tc main_arg3) = m ((c : Thread nD τ).loc main_arg3) :=
  (W2_of_ne m ρ c main_arg3 (by decide)).trans (W1_main_arg3 m ρ c)

/-- The first call writes only its result array: `main_arg5` leaves it as launched. -/
theorem W2_main_arg5 (c : Dev nD) : W2 m ρ c (Proc.devRef .tc main_arg5) = m ((c : Thread nD τ).loc main_arg5) :=
  (W2_of_ne m ρ c main_arg5 (by decide)).trans (W1_main_arg5 m ρ c)

/-- The first call writes only its result array: `main_arg7` leaves it as launched. -/
theorem W2_main_arg7 (c : Dev nD) : W2 m ρ c (Proc.devRef .tc main_arg7) = m ((c : Thread nD τ).loc main_arg7) :=
  (W2_of_ne m ρ c main_arg7 (by decide)).trans (W1_main_arg7 m ρ c)

/-- The first call writes only its result array: `main_arg8` leaves it as launched. -/
theorem W2_main_arg8 (c : Dev nD) : W2 m ρ c (Proc.devRef .tc main_arg8) = m ((c : Thread nD τ).loc main_arg8) :=
  (W2_of_ne m ρ c main_arg8 (by decide)).trans (W1_main_arg8 m ρ c)

/-- Nor does an operation between the two calls write `main_arg5`: the second call finds it as launched. -/
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := W2_main_arg5 m ρ c

/-- Nor does an operation between the two calls write `main_arg7`: the second call finds it as launched. -/
theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := W2_main_arg7 m ρ c

/-- Nor does an operation between the two calls write `main_arg8`: the second call finds it as launched. -/
theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := W2_main_arg8 m ρ c

end Cert.KernelIdeal.Val

end
-- ==== Proof.HostReads.lean ====
/-
  What the two calls find in the arrays that host operations wrote.

  Before the first call: the rows of the feature table at the (normalised) indices `idx0`, rounded to the
  narrow format, and the rows of the feature table at the (normalised) entries of `idx0` taken at the
  (normalised) indices `cur1`.  Between the calls: the first call's result rounded to the narrow format, and
  its rows at the (normalised) indices `cur2`.  An index is normalised as `x[idx]` does it: an index below zero
  is shifted up by the extent of the axis.
-/
import proofs.«164521_j15985868276246_2_alg».proof.Proof.KernelRun

set_option maxRecDepth 16384

noncomputable section

namespace Cert.KernelIdeal.Val

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The deepest hop's features: the table's rows at `idx0`. -/
def f0 (c : Dev nD) : FVec F S16384x128 .f32 :=
  Host.gather gather_S200000x128_S16384x1_S16384x128_1_0_n_n_0_1_1128 (m ((c : Thread nD τ).loc main_arg0))
    (broadcastInDim S16384x1 ![0] bcast_S16384_S16384x1_0
      (select
        (cmpi CmpIPredicate.slt (m ((c : Thread nD τ).loc main_arg1))
          (broadcastInDim S16384 ![] bcast_S_S16384 (constantI S_ 32 0#32)))
        (addi (m ((c : Thread nD τ).loc main_arg1))
          (broadcastInDim S16384 ![] bcast_S_S16384 (constantI S_ 32 200000#32)))
        (m ((c : Thread nD τ).loc main_arg1))))

/-- The first call's resident operand is `f0` in the narrow format. -/
theorem W1_main_v7 (c : Dev nD) :
    W1 m ρ c (Proc.devRef .tc main_v7) = truncf FTy.bf16 (f0 m c) bitsLt_bf16_f32 := by
  show StableHlo.after hostOps0 _ (Proc.devRef .tc main_v7) = _
  after_results
  rfl

/-- The first layer's self rows, the kernel's way: the table's rows at the entries of `idx0` taken at `cur1`. -/
def selfRows (c : Dev nD) : FVec F S8192x128 .f32 :=
  Host.gather gather_S200000x128_S8192x1_S8192x128_1_0_n_n_0_1_1128 (m ((c : Thread nD τ).loc main_arg0))
    (broadcastInDim S8192x1 ![0] bcast_S8192_S8192x1_0
      (select
        (cmpi CmpIPredicate.slt
          (Host.gather gather_S16384_S8192x1_S8192_n_0_n_n_0_1_1 (m ((c : Thread nD τ).loc main_arg1))
            (broadcastInDim S8192x1 ![0] bcast_S8192_S8192x1_0
              (select
                (cmpi CmpIPredicate.slt (m ((c : Thread nD τ).loc main_arg2))
                  (broadcastInDim S8192 ![] bcast_S_S8192 (constantI S_ 32 0#32)))
                (addi (m ((c : Thread nD τ).loc main_arg2))
                  (broadcastInDim S8192 ![] bcast_S_S8192 (constantI S_ 32 16384#32)))
                (m ((c : Thread nD τ).loc main_arg2)))))
          (broadcastInDim S8192 ![] bcast_S_S8192 (constantI S_ 32 0#32)))
        (addi
          (Host.gather gather_S16384_S8192x1_S8192_n_0_n_n_0_1_1 (m ((c : Thread nD τ).loc main_arg1))
            (broadcastInDim S8192x1 ![0] bcast_S8192_S8192x1_0
              (select
                (cmpi CmpIPredicate.slt (m ((c : Thread nD τ).loc main_arg2))
                  (broadcastInDim S8192 ![] bcast_S_S8192 (constantI S_ 32 0#32)))
                (addi (m ((c : Thread nD τ).loc main_arg2))
                  (broadcastInDim S8192 ![] bcast_S_S8192 (constantI S_ 32 16384#32)))
                (m ((c : Thread nD τ).loc main_arg2)))))
          (broadcastInDim S8192 ![] bcast_S_S8192 (constantI S_ 32 200000#32)))
        (Host.gather gather_S16384_S8192x1_S8192_n_0_n_n_0_1_1 (m ((c : Thread nD τ).loc main_arg1))
          (broadcastInDim S8192x1 ![0] bcast_S8192_S8192x1_0
            (select
              (cmpi CmpIPredicate.slt (m ((c : Thread nD τ).loc main_arg2))
                (broadcastInDim S8192 ![] bcast_S_S8192 (constantI S_ 32 0#32)))
              (addi (m ((c : Thread nD τ).loc main_arg2))
                (broadcastInDim S8192 ![] bcast_S_S8192 (constantI S_ 32 16384#32)))
              (m ((c : Thread nD τ).loc main_arg2)))))))

set_option maxHeartbeats 4000000 in
/-- The first call's self operand. -/
theorem W1_main_v21 (c : Dev nD) : W1 m ρ c (Proc.devRef .tc main_v21) = selfRows m c := by
  show StableHlo.after hostOps0 _ (Proc.devRef .tc main_v21) = _
  after_results_simp <;> rfl

/-- The second call's resident operand is the first call's result in the narrow format. -/
theorem W3_main_v23 (c : Dev nD) :
    W3 m ρ c (Proc.devRef .tc main_v23) = truncf FTy.bf16 (W2 m ρ c (Proc.devRef .tc main_v22)) bitsLt_bf16_f32 := by
  show StableHlo.after hostOps1 _ (Proc.devRef .tc main_v23) = _
  after_results

/-- The second call's self operand: the first call's result rows at `cur2`. -/
theorem W3_main_v30 (c : Dev nD) :
    W3 m ρ c (Proc.devRef .tc main_v30)
      = Host.gather gather_S8192x256_S1024x1_S1024x256_1_0_n_n_0_1_1256 (W2 m ρ c (Proc.devRef .tc main_v22))
          (broadcastInDim S1024x1 ![0] bcast_S1024_S1024x1_0
            (select
              (cmpi CmpIPredicate.slt (W2 m ρ c (Proc.devRef .tc main_arg3))
                (broadcastInDim S1024 ![] bcast_S_S1024 (constantI S_ 32 0#32)))
              (addi (W2 m ρ c (Proc.devRef .tc main_arg3))
                (broadcastInDim S1024 ![] bcast_S_S1024 (constantI S_ 32 8192#32)))
              (W2 m ρ c (Proc.devRef .tc main_arg3)))) := by
  show StableHlo.after hostOps1 _ (Proc.devRef .tc main_v30) = _
  after_results

end Cert.KernelIdeal.Val

end
-- ==== Proof.KernelValue.lean ====
/-
  The idealized kernel's result as one expression of the launch arrays.

  The second call's array is layer 2 over what that call finds: the second mask and the two weight matrices as
  launched, the first call's array in the narrow format, and the first call's array's rows at `cur2`.  The first
  call's array is layer 1 over what that call finds: the first mask and the weights as launched, the deepest
  hop's features in the narrow format, and the self rows.
-/
import proofs.«164521_j15985868276246_2_alg».proof.Proof.FirstCall
import proofs.«164521_j15985868276246_2_alg».proof.Proof.SecondCall
import proofs.«164521_j15985868276246_2_alg».proof.Proof.HostReads

set_option maxRecDepth 16384

noncomputable section

namespace Cert.KernelIdeal.Val

open Cert.KernelIdeal Cert.KernelIdeal.Gen Cert.Sage
open Idealize.ShloMosaic Idealize.ShloMosaic.TcCoe Idealize.SL.Sem

variable (m : (ℓ : Loc nD τ sig) → Buf (Elt Ideal) ℓ) (ρ : Dev nD → PrngReg)

/-- The hidden features, as the kernel computes them. -/
def hiddenK (c : Dev nD) : FVec Ideal (M 8192 256) .f32 :=
  layer1 8192 (φ₁ := .bf16) (φ₂ := .f32) cat8192_256 (m ((c : Thread nD τ).loc main_arg4))
    (truncf FTy.bf16 (f0 m c) bitsLt_bf16_f32) (selfRows m c) (m ((c : Thread nD τ).loc main_arg6))

/-- `cur2` as a column of normalised indices into the 8192 hidden rows. -/
def col2 (c : Dev nD) : IVec S1024x1 32 :=
  broadcastInDim S1024x1 ![0] bcast_S1024_S1024x1_0
    (select
      (cmpi CmpIPredicate.slt (m ((c : Thread nD τ).loc main_arg3))
        (broadcastInDim S1024 ![] bcast_S_S1024 (constantI S_ 32 0#32)))
      (addi (m ((c : Thread nD τ).loc main_arg3))
        (broadcastInDim S1024 ![] bcast_S_S1024 (constantI S_ 32 8192#32)))
      (m ((c : Thread nD τ).loc main_arg3)))

/-- The result, as the kernel computes it. -/
def outK (c : Dev nD) : FVec Ideal (M 1024 64) .f32 :=
  layer2 1024 (φ₁ := .bf16) (φ₂ := .f32) (φ₃ := .f32) cat1024_512 (m ((c : Thread nD τ).loc main_arg5))
    (truncf FTy.bf16 (hiddenK m c) bitsLt_bf16_f32)
    (Host.gather gather_S8192x256_S1024x1_S1024x256_1_0_n_n_0_1_1256 (hiddenK m c) (col2 m c))
    (m ((c : Thread nD τ).loc main_arg7)) (m ((c : Thread nD τ).loc main_arg8))

/-- After the first call its result array holds the hidden features. -/
theorem first_array (c : Dev nD) : W2 m ρ c (Proc.devRef .tc main_v22) = hiddenK m c :=
  ((W2_arr m ρ c 4).trans (array0 (V1 m ρ) c)).trans (by
    unfold hidden0 hiddenK
    show layer1 8192 (φ₁ := .bf16) (φ₂ := .f32) _ (W1 m ρ c (Proc.devRef .tc main_arg4)) (W1 m ρ c (Proc.devRef .tc main_v7))
      (W1 m ρ c (Proc.devRef .tc main_v21)) (W1 m ρ c (Proc.devRef .tc main_arg6)) = _
    rw [W1_main_arg4 m ρ c, W1_main_v7 m ρ c, W1_main_v21 m ρ c, W1_main_arg6 m ρ c])

/-- After the second call its result array holds the result. -/
theorem kernel_value (c : Dev nD) : (dat1 (V3 m ρ) c).arrAt 5 cfg1.N = outK m c :=
  (array1 (V3 m ρ) c).trans (by
    unfold out1 outK col2
    show layer2 1024 (φ₁ := .bf16) (φ₂ := .f32) (φ₃ := .f32) _ (W3 m ρ c (Proc.devRef .tc main_arg5)) (W3 m ρ c (Proc.devRef .tc main_v23))
      (W3 m ρ c (Proc.devRef .tc main_v30)) (W3 m ρ c (Proc.devRef .tc main_arg7)) (W3 m ρ c (Proc.devRef .tc main_arg8)) = _
    rw [W3_main_arg5 m ρ c, W3_main_v23 m ρ c, W3_main_v30 m ρ c, W3_main_arg7 m ρ c, W3_main_arg8 m ρ c,
      W2_main_arg3 m ρ c, first_array m ρ c])

end Cert.KernelIdeal.Val

end
-- ==== Proof.LibRowGather.lean ====
/-
  Two spellings of one indexed read.

  \`x[idx]\` along the leading axis is printed as: normalise the indices elementwise, lay them out as a column
  \`[R] → [R, 1]\`, and gather.  The gather reads every start index as a signed integer and CLAMPS it into
  \`[0, N − 1]\` (N the extent of the gathered axis).  Read at one result index, a row gather \`[N, C] → [R, C]\` is
  therefore \`x (clamp_N idx[r, 0], c)\` and a flat gather \`[N] → [R]\` is \`x (clamp_N idx[r, 0])\`.

  The fact proved here: gathering the rows of \`x\` at "the normalised \`idx0\`, itself gathered at \`n2\`" is gathering, at
  \`n2\`, the rows of "\`x\` gathered at the normalised \`idx0\`".  Both read
      x (clamp_N (norm (idx0 (clamp_K n2[r, 0]))), c) :
  the integer gather and the row gather over the K-axis clamp \`n2[r, 0]\` the same way, and the normalisation acts
  entry by entry, so it commutes with picking an entry.  No range assumption on any index is used.
-/
import Idealize.ShloMosaic.PureOps.Ideal
import Idealize.ShloMosaic.Lib.ValueIdx
import Idealize.ShloMosaic.Lib.Pipeline.Value
noncomputable section
namespace Cert.Sage
open Idealize.ShloMosaic Idealize.ShloMosaic.ValueIdx
variable {α : Type}

abbrev M2 (a b : Nat) : Shape := ⟨2, ![a, b]⟩
abbrev M1 (a : Nat) : Shape := ⟨1, ![a]⟩

/-- x[idx] for rows: operand [N, C], start indices [R, 1], result [R, C] -/
abbrev rowDims (N R C : Nat) (wf : GatherDims.WF (M2 N C) (M2 R 1) (M2 R C) [1] [0] [] [0] [] 1 ![1, C]) :
    GatherDims (M2 N C) (M2 R 1) (M2 R C) where
  offsetDims := [1]
  collapsedSliceDims := [0]
  operandBatchingDims := []
  startIndicesBatchingDims := []
  startIndexMap := [0]
  indexVectorDim := 1
  sliceSizes := ![1, C]
  wf := wf
/-- x[idx] for a flat operand [N], start indices [R, 1], result [R] -/
abbrev vecDims (N R : Nat) (wf : GatherDims.WF (M1 N) (M2 R 1) (M1 R) [] [0] [] [0] [] 1 ![1]) :
    GatherDims (M1 N) (M2 R 1) (M1 R) where
  offsetDims := []
  collapsedSliceDims := [0]
  operandBatchingDims := []
  startIndicesBatchingDims := []
  startIndexMap := [0]
  indexVectorDim := 1
  sliceSizes := ![1]
  wf := wf

/-- the row gather read at (r, c): row clamp(idx[r,0]) of the operand, at column c -/
theorem gather_rows_apply {N R C w : Nat} (hN : 0 < N)
    (wf : GatherDims.WF (M2 N C) (M2 R 1) (M2 R C) [1] [0] [] [0] [] 1 ![1, C])
    (x : (M2 N C).Idx → α) (idx : IVec (M2 R 1) w) (r : Fin R) (c : Fin C) :
    Host.gather (rowDims N R C wf) x idx (ix2 r c)
      = x (ix2 ⟨min (idx (ix2 r ⟨0, Nat.one_pos⟩)).toInt.toNat (N - 1), by omega⟩ c) := by
  unfold Host.gather
  congr 1
  funext a
  refine Fin.ext ?_
  match a with
  | ⟨0, _⟩ =>
    -- the gathered axis: collapsed, so no batch and no offset coordinate; the start is the clamped index
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r ⟨0, Nat.one_pos⟩ := by
      funext b; refine Fin.ext ?_
      match b with
      | ⟨0, _⟩ => rfl
      | ⟨1, _⟩ => rfl
    rw [hsi]
    rfl
  | ⟨1, _⟩ =>
    -- the kept axis: not indexed (start 0), not batching; the offset coordinate is the result's column
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    have hs : (rowDims N R C wf).start (ix2 r c) idx 1 = 0 := by
      unfold GatherDims.start
      have h1 : (1 : Fin 2) ∉ (rowDims N R C wf).startIndexMap := by
        show (1 : Fin 2) ∉ ([0] : List (Fin 2)); decide
      rw [dif_neg h1]
    have ho : (rowDims N R C wf).offCoord (ix2 r c) 1 = c.val := by
      unfold GatherDims.offCoord
      have h1 : (1 : Fin 2) ∉ (rowDims N R C wf).collapsedSliceDims := by
        show (1 : Fin 2) ∉ ([0] : List (Fin 2)); decide
      rw [dif_pos ((GatherDims.mem_sKept _ _).mpr ⟨h1, List.not_mem_nil⟩)]
      rfl
    rw [hs, ho]; omega

/-- the flat gather read at r -/
theorem gather_vec_apply {N R w : Nat} (hN : 0 < N)
    (wf : GatherDims.WF (M1 N) (M2 R 1) (M1 R) [] [0] [] [0] [] 1 ![1])
    (x : (M1 N).Idx → α) (idx : IVec (M2 R 1) w) (r : Fin R) :
    Host.gather (vecDims N R wf) x idx (ix1 r)
      = x (ix1 ⟨min (idx (ix2 r ⟨0, Nat.one_pos⟩)).toInt.toNat (N - 1), by omega⟩) := by
  unfold Host.gather
  congr 1
  funext a
  obtain rfl : a = 0 := Subsingleton.elim _ _
  refine Fin.ext ?_
  show (vecDims N R wf).start (ix1 r) idx 0 + (vecDims N R wf).batchCoord (ix1 r) 0
    + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r ⟨0, Nat.one_pos⟩ := by
    funext b; refine Fin.ext ?_
    match b with
    | ⟨0, _⟩ => rfl
    | ⟨1, _⟩ => rfl
  rw [hsi]
  rfl

/-- a vector laid out as a column, read at (r, 0), is the vector at r (whether or not R = 1) -/
theorem broadcast_col_apply {β : Type} {R : Nat} (h : (M1 R).BroadcastsInDim (M2 R 1) ![0])
    (v : (M1 R).Idx → β) (r : Fin R) :
    broadcastInDim (M2 R 1) ![0] h v (ix2 r ⟨0, Nat.one_pos⟩) = v (ix1 r) := by
  refine broadcastInDim_apply ![0] h v _ (ix1 r) ?_
  intro a
  match a with
  | ⟨0, _⟩ =>
    show r.val = if R = 1 then 0 else r.val
    split
    · have := r.isLt; omega
    · rfl

/-- THE FACT: gathering rows of x at (normalised idx0 gathered at n2) is gathering, at n2, the rows of x gathered at (normalised idx0).
    nA / nB are the programs' elementwise normalisations on [K] and [R]; only their being ONE elementwise function norm1 is used. -/
theorem gather_gather_eq {N K R C : Nat} (hN : 0 < N) (hK : 0 < K)
    (wfA : GatherDims.WF (M2 N C) (M2 K 1) (M2 K C) [1] [0] [] [0] [] 1 ![1, C])
    (wfA' : GatherDims.WF (M2 N C) (M2 R 1) (M2 R C) [1] [0] [] [0] [] 1 ![1, C])
    (wfB : GatherDims.WF (M2 K C) (M2 R 1) (M2 R C) [1] [0] [] [0] [] 1 ![1, C])
    (wfI : GatherDims.WF (M1 K) (M2 R 1) (M1 R) [] [0] [] [0] [] 1 ![1])
    (hbK : (M1 K).BroadcastsInDim (M2 K 1) ![0]) (hbR : (M1 R).BroadcastsInDim (M2 R 1) ![0])
    (nA : IVec (M1 K) 32 → IVec (M1 K) 32) (nB : IVec (M1 R) 32 → IVec (M1 R) 32) (norm1 : BitVec 32 → BitVec 32)
    (hnA : ∀ v i, nA v i = norm1 (v i)) (hnB : ∀ v i, nB v i = norm1 (v i))
    (x : (M2 N C).Idx → α) (idx0 : IVec (M1 K) 32) (n2 : IVec (M2 R 1) 32) :
    Host.gather (rowDims N R C wfA') x (broadcastInDim (M2 R 1) ![0] hbR (nB (Host.gather (vecDims K R wfI) idx0 n2)))
      = Host.gather (rowDims K R C wfB) (Host.gather (rowDims N K C wfA) x (broadcastInDim (M2 K 1) ![0] hbK (nA idx0))) n2 := by
  funext j
  obtain ⟨r, c, rfl⟩ : ∃ (r : Fin R) (c : Fin C), j = ix2 r c := ⟨j 0, j 1, eq_ix2 j⟩
  rw [gather_rows_apply hN wfA', gather_rows_apply hK wfB, gather_rows_apply hN wfA]
  -- both sides are x at (·, c); it remains to compare the two row numbers
  refine congrArg x (congrArg (fun p => ix2 p c) (Fin.ext ?_))
  show min ((broadcastInDim (M2 R 1) ![0] hbR (nB (Host.gather (vecDims K R wfI) idx0 n2)))
        (ix2 r ⟨0, Nat.one_pos⟩)).toInt.toNat (N - 1)
    = min ((broadcastInDim (M2 K 1) ![0] hbK (nA idx0))
        (ix2 (⟨min (n2 (ix2 r ⟨0, Nat.one_pos⟩)).toInt.toNat (K - 1), by omega⟩ : Fin K) ⟨0, Nat.one_pos⟩)).toInt.toNat (N - 1)
  rw [broadcast_col_apply, broadcast_col_apply, hnA, hnB, gather_vec_apply hK wfI]

end Cert.Sage
end
-- ==== Proof.SelfRows.lean ====
/-
  The first layer's self rows, the kernel program's way and the reference's way, are one array.

  The kernel program reads the feature table at "the entries of idx0 taken at cur1": an integer gather of idx0 at
  the (normalised) cur1, normalised against the table's extent, then a row gather of the table.  The reference reads
  the rows of f0 — the table's rows at the (normalised) idx0 — at the (normalised) cur1.  Both gathers over the
  16384-axis clamp cur1's entry the same way and the normalisation against the table's extent acts entry by entry,
  so the two are equal for all integer inputs, in range or not.
-/
import proofs.«164521_j15985868276246_2_alg».proof.Proof.HostReads
import proofs.«164521_j15985868276246_2_alg».proof.Proof.LibRowGather
set_option maxRecDepth 16384
noncomputable section
namespace Cert.KernelIdeal.Val
open Cert.KernelIdeal Cert.KernelIdeal.Gen Cert.Sage Idealize.ShloMosaic Idealize.ShloMosaic.TcCoe Idealize.SL.Sem
variable {F : FTy → Type} [FloatOps F]
variable (m : (ℓ : Loc nD τ sig) → Buf (Elt F) ℓ)

theorem wf_rows_of_f0 : GatherDims.WF (M2 16384 128) (M2 8192 1) (M2 8192 128) [1] [0] [] [0] [] 1 ![1, 128] := by decide

/-- cur1 as a column of normalised indices into the 16384 rows (the kernel program's spelling of it) -/
def col1 (c : Dev nD) : IVec S8192x1 32 :=
  broadcastInDim S8192x1 ![0] bcast_S8192_S8192x1_0
    (select (cmpi CmpIPredicate.slt (m ((c : Thread nD τ).loc main_arg2)) (broadcastInDim S8192 ![] bcast_S_S8192 (constantI S_ 32 0#32)))
      (addi (m ((c : Thread nD τ).loc main_arg2)) (broadcastInDim S8192 ![] bcast_S_S8192 (constantI S_ 32 16384#32)))
      (m ((c : Thread nD τ).loc main_arg2)))

/-- in_features[idx0[cur1]] = in_features[idx0][cur1], for all integer inputs -/
theorem selfRows_eq (c : Dev nD) :
    selfRows m c = Host.gather (rowDims 16384 8192 128 wf_rows_of_f0) (f0 m c) (col1 m c) := by
  unfold selfRows f0 col1
  exact gather_gather_eq (by omega) (by omega) _ _ _ _ bcast_S16384_S16384x1_0 bcast_S8192_S8192x1_0
    (fun v => select (cmpi CmpIPredicate.slt v (broadcastInDim S16384 ![] bcast_S_S16384 (constantI S_ 32 0#32)))
      (addi v (broadcastInDim S16384 ![] bcast_S_S16384 (constantI S_ 32 200000#32))) v)
    (fun v => select (cmpi CmpIPredicate.slt v (broadcastInDim S8192 ![] bcast_S_S8192 (constantI S_ 32 0#32)))
      (addi v (broadcastInDim S8192 ![] bcast_S_S8192 (constantI S_ 32 200000#32))) v)
    (fun b => Scalar.select (IntOp.cmpi .slt b 0#32) (b + 200000#32) b)
    (fun _ _ => rfl) (fun _ _ => rfl) _ _ _
end Cert.KernelIdeal.Val
end
-- ==== Proof.RefValue.lean ====
/-
  The reference program's result, as the two layer operators over the reference's own gathers.

  The program's composed term is, read from the inside out: the rows of the feature table at the (normalised) deepest
  indices; their rows again at the (normalised) middle indices, which are the first layer's self rows; the first hidden
  layer relu([self | mask₁ · f0] · W₁); its rows at the (normalised) innermost indices; and the output layer
  1 / (1 + exp(−(relu([self₂ | mask₂ · hidden] · W₂) · W_out))).  Nothing is computed here: the statement only gives
  names to the pieces.  The program spells each plain matrix product by its dimension numbers (contract the left
  operand's columns with the right operand's rows), each shape by its literal extents, and the constants 0.0 and 1.0 as a
  scalar laid out over the whole shape; each of these is, by unfolding, the layer operators' spelling.
-/
import proofs.«164521_j15985868276246_2_alg».proof.Proof.Gen.ReferenceIdeal.Run
import proofs.«164521_j15985868276246_2_alg».proof.Proof.Layers
import Idealize.ShloMosaic.Lib.KernelVsHost
set_option maxRecDepth 16384
noncomputable section
namespace Cert.ReferenceIdeal.RefValue
open Cert.ReferenceIdeal Cert.ReferenceIdeal.Gen Cert.Sage Idealize.ShloMosaic Idealize.ShloMosaic.TcCoe Idealize.SL.Sem
variable (m : (ℓ : Loc nD τ sig) → Buf (Elt Ideal) ℓ)

/-- the deepest hop's features: the table's rows at idx0 (indices below zero shifted up by the extent, as x[idx] does) -/
def f0 (c : Dev nD) : FVec Ideal S16384x128 .f32 :=
  Host.gather gather_S200000x128_S16384x1_S16384x128_1_0_n_n_0_1_1128 (m ((c.tc : Thread nD τ).loc main_arg0))
    (broadcastInDim S16384x1 ![0] bcast_S16384_S16384x1_0
      (select (cmpi .slt (m ((c.tc : Thread nD τ).loc main_arg1)) (broadcastInDim S16384 ![] bcast_S_S16384 (constantI S_ 32 0#32)))
        (addi (m ((c.tc : Thread nD τ).loc main_arg1)) (broadcastInDim S16384 ![] bcast_S_S16384 (constantI S_ 32 200000#32)))
        (m ((c.tc : Thread nD τ).loc main_arg1))))
/-- cur1 as a column of normalised indices into the 16384 rows -/
def col1 (c : Dev nD) : IVec S8192x1 32 :=
  broadcastInDim S8192x1 ![0] bcast_S8192_S8192x1_0
    (select (cmpi .slt (m ((c.tc : Thread nD τ).loc main_arg2)) (broadcastInDim S8192 ![] bcast_S_S8192 (constantI S_ 32 0#32)))
      (addi (m ((c.tc : Thread nD τ).loc main_arg2)) (broadcastInDim S8192 ![] bcast_S_S8192 (constantI S_ 32 16384#32)))
      (m ((c.tc : Thread nD τ).loc main_arg2)))
/-- cur2 as a column of normalised indices into the 8192 rows -/
def col2 (c : Dev nD) : IVec S1024x1 32 :=
  broadcastInDim S1024x1 ![0] bcast_S1024_S1024x1_0
    (select (cmpi .slt (m ((c.tc : Thread nD τ).loc main_arg3)) (broadcastInDim S1024 ![] bcast_S_S1024 (constantI S_ 32 0#32)))
      (addi (m ((c.tc : Thread nD τ).loc main_arg3)) (broadcastInDim S1024 ![] bcast_S_S1024 (constantI S_ 32 8192#32)))
      (m ((c.tc : Thread nD τ).loc main_arg3)))
/-- the first layer's self rows, the reference's way: rows of f0 at cur1 -/
def selfRows (c : Dev nD) : FVec Ideal S8192x128 .f32 :=
  Host.gather gather_S16384x128_S8192x1_S8192x128_1_0_n_n_0_1_1128 (f0 m c) (col1 m c)
/-- the hidden features after layer 1 -/
def hidden (c : Dev nD) : FVec Ideal S8192x256 .f32 :=
  layer1 8192 (φ₁ := .f32) (φ₂ := .f32) concatenates_S8192x128_S8192x128_S8192x256_d1 (m ((c.tc : Thread nD τ).loc main_arg4)) (f0 m c) (selfRows m c) (m ((c.tc : Thread nD τ).loc main_arg6))
/-- THE REFERENCE'S RESULT is layer 2 over the hidden features and their rows at cur2 -/
theorem res_eq (c : Dev nD) :
    Value.res_main_v35 m c
      = layer2 1024 (φ₁ := .f32) (φ₂ := .f32) (φ₃ := .f32) concatenates_S1024x256_S1024x256_S1024x512_d1 (m ((c.tc : Thread nD τ).loc main_arg5)) (hidden m c)
          (Host.gather gather_S8192x256_S1024x1_S1024x256_1_0_n_n_0_1_1256 (hidden m c) (col2 m c))
          (m ((c.tc : Thread nD τ).loc main_arg7)) (m ((c.tc : Thread nD τ).loc main_arg8)) := by
  unfold Value.res_main_v35 layer2 hidden layer1 selfRows f0 col1 col2
  rfl
end Cert.ReferenceIdeal.RefValue
end
-- ==== Proof.SameValue.lean ====
/-
  The two programs compute one array.

  Over memories that agree on the nine arguments, the reference's result — layer 2 over the hidden features and
  their rows at `cur2`, the hidden features layer 1 over the deepest hop's features `f0 = in_features[idx0]` and
  the self rows `f0[cur1]` — is the kernel's.  The kernel differs in two ways only.  It hands each resident
  operand to its call in the narrow float format, which on the extended reals is the identity.  And it takes the
  self rows as `in_features[idx0[cur1]]`: the same rows, for every integer input, because the integer table
  `idx0` and the float table `f0` are indexed along the same axis of 16384 entries with the same clamping, and
  the shift of a negative index is applied entry by entry.
-/
import proofs.«164521_j15985868276246_2_alg».proof.Proof.KernelValue
import proofs.«164521_j15985868276246_2_alg».proof.Proof.SelfRows
import proofs.«164521_j15985868276246_2_alg».proof.Proof.RefValue

set_option maxRecDepth 16384

noncomputable section

namespace Cert.Proof.Bridge

open Idealize.ShloMosaic Idealize.ShloMosaic.TcCoe Idealize.SL.Sem Cert.Sage

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem same_value (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v35 m' c = Cert.KernelIdeal.Val.outK m c := by
  rw [Cert.ReferenceIdeal.RefValue.res_eq m' c]
  have e_f0 : Cert.ReferenceIdeal.RefValue.f0 m' c = Cert.KernelIdeal.Val.f0 m c := by
    unfold Cert.ReferenceIdeal.RefValue.f0 Cert.KernelIdeal.Val.f0
    rw [h0, h1]
    rfl
  have e_col1 : Cert.ReferenceIdeal.RefValue.col1 m' c = Cert.KernelIdeal.Val.col1 m c := by
    unfold Cert.ReferenceIdeal.RefValue.col1 Cert.KernelIdeal.Val.col1
    rw [h2]
  have e_col2 : Cert.ReferenceIdeal.RefValue.col2 m' c = Cert.KernelIdeal.Val.col2 m c := by
    unfold Cert.ReferenceIdeal.RefValue.col2 Cert.KernelIdeal.Val.col2
    rw [h3]
  have e_self : Cert.ReferenceIdeal.RefValue.selfRows m' c = Cert.KernelIdeal.Val.selfRows m c := by
    unfold Cert.ReferenceIdeal.RefValue.selfRows
    rw [e_f0, e_col1, Cert.KernelIdeal.Val.selfRows_eq m c]
    rfl
  have e_hidden : Cert.ReferenceIdeal.RefValue.hidden m' c = Cert.KernelIdeal.Val.hiddenK m c := by
    unfold Cert.ReferenceIdeal.RefValue.hidden Cert.KernelIdeal.Val.hiddenK
    rw [e_f0, e_self, h4, h6]
    rfl
  unfold Cert.KernelIdeal.Val.outK
  rw [e_hidden, e_col2, h5, h7, h8]
  rfl

end Cert.Proof.Bridge

end
-- ==== Proof.lean ====
/-
  The certificate of a two-layer neighbourhood-aggregation network's forward pass: a kernel that runs each layer
  as one pipelined call over blocks of 128 rows, against the plain array program.

  Both compute  sigmoid(relu([h[cur2] | mask2 · h] · W2) · W_out)  with the hidden features
  h = relu([self | mask1 · f0] · W1),  f0 = in_features[idx0]  and  self = f0[cur1].  Read on the extended reals
  every operation is exact and a change of float format is the identity, so each call's row block is the row
  block of its layer on all rows (a row of a layer depends only on that row of the mask and of the self rows:
  Proof/Layers.lean, Proof/FirstCall.lean, Proof/SecondCall.lean), the kernel's one-operation logistic is the
  reference's 1 / (1 + e^(-x)), and the kernel's self rows in_features[idx0[cur1]] are the reference's
  in_features[idx0][cur1] for every integer input (Proof/Gathers.lean, Proof/SelfRows.lean).  No sum is split and
  no law beyond congruence is used, so the finiteness of the inputs is not needed.  The ideal pass rewrote nothing,
  so the kernel's idealization is its own text read at the ideal values.
-/
import proofs.«164521_j15985868276246_2_alg».proof.Defs
import proofs.«164521_j15985868276246_2_alg».proof.Proof.Gen.Kernel
import proofs.«164521_j15985868276246_2_alg».proof.Proof.Gen.Kernel.Skeleton
import proofs.«164521_j15985868276246_2_alg».proof.Proof.Gen.Kernel.Launch
import proofs.«164521_j15985868276246_2_alg».proof.Proof.Gen.Kernel.Points
import proofs.«164521_j15985868276246_2_alg».proof.Proof.Gen.Kernel.Frame
import proofs.«164521_j15985868276246_2_alg».proof.Proof.Gen.KernelIdeal
import proofs.«164521_j15985868276246_2_alg».proof.Proof.Gen.KernelIdeal.Skeleton
import proofs.«164521_j15985868276246_2_alg».proof.Proof.Gen.KernelIdeal.Launch
import proofs.«164521_j15985868276246_2_alg».proof.Proof.Gen.KernelIdeal.Points
import proofs.«164521_j15985868276246_2_alg».proof.Proof.Gen.KernelIdeal.Frame
import proofs.«164521_j15985868276246_2_alg».proof.Proof.Gen.ReferenceIdeal
import proofs.«164521_j15985868276246_2_alg».proof.Proof.Gen.Pre_finite_inputs
import proofs.«164521_j15985868276246_2_alg».proof.Proof.Gen.ReferenceIdeal.Run
import proofs.«164521_j15985868276246_2_alg».proof.Proof.SameValue
import Idealize.ShloMosaic.Adequacy
import Idealize.ShloMosaic.Init

noncomputable section

namespace Cert.Proof

open Idealize.ShloMosaic Idealize.SL.Sem

/-- Both idealized programs run from memories agreeing on the arguments and end with one result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.outK m c, ?_, ?_⟩
  · exact (θ_run Cert.KernelIdeal.defs _ _).mono
      (fun r h c => ⟨(h c).1.trans (Cert.KernelIdeal.Val.kernel_value m ρ c), (h c).2⟩)
      (Cert.KernelIdeal.Val.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    exact Bridge.same_value m m' c h0 h1 h2 h3 h4 h5 h6 h7 h8

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
